-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x2048 : Shape := ⟨2, ![65536, 2048]⟩
abbrev S2048x2048 : Shape := ⟨2, ![2048, 2048]⟩
abbrev S2048 : Shape := ⟨1, ![2048]⟩
abbrev S_ : Shape := ⟨0, ![]⟩

class Facts : Prop where
  bcast_S_S65536x2048 : S_.BroadcastsInDim S65536x2048 (![] : Fin 0 → Fin S65536x2048.rank)
  reducesTo_S65536x2048_S_d0_1 : S65536x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S65536x2048 .f32) (main_arg1 : FVec F S2048x2048 .f32) (main_arg2 : FVec F S2048 .f32) (main_arg3 : FVec F S2048x2048 .f32) : IVec S_ 1 :=
  let main_v0 : FVec F S65536x2048 .f32 := Host.absf main_arg0
  let main_cst : FVec F S_ .f32 := constant S_ .f32 0x7F800000#32
  let main_v1 : FVec F S65536x2048 .f32 := broadcastInDim S65536x2048 ![] bcast_S_S65536x2048 main_cst
  let main_v2 : IVec S65536x2048 1 := cmpf .olt main_v0 main_v1
  let main_c : IVec S_ 1 := constantI S_ 1 1#1
  let main_v3 : IVec S_ 1 := (fun x v => Host.reduce IntOp.andi x v reducesTo_S65536x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Kernel.lean ====
abbrev S65536x2048 : Shape := ⟨2, ![65536, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩

abbrev nBuf : Space → Nat
  | .hbm => 9
  | .vmem => 6
  | .smem => 0
  | _ => 0

abbrev bufTy : (tb : Table) → Fin (tcTables nBuf tb) → BufTy
  | .hbm, ⟨0, _⟩ => ⟨S65536x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .hbm, ⟨8, _⟩ => ⟨S65536x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S65536x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S2048x2048_S2048x2048_1_0 : S2048x2048.Transposes [1, 0] S2048x2048
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S65536x2048.size a
  hwx0_0 : ∀ i : grid0.Coords, EltTy.bits .f32 = 32 ∨ (Rect.block (s := S65536x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S65536x2048.size a
  hwx0_3 : ∀ i : grid0.Coords, EltTy.bits .f32 = 32 ∨ (Rect.block (s := S65536x2048) S512x2048.size (cc0_transform_3 i) (hinb0_3 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x2048 : Shape := ⟨2, ![65536, 2048]⟩
abbrev S2048x2048 : Shape := ⟨2, ![2048, 2048]⟩
abbrev S2048 : Shape := ⟨1, ![2048]⟩
abbrev S1x2048 : Shape := ⟨2, ![1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S65536x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048x2048, .f32⟩
  | .hbm, ⟨5, _⟩ => ⟨S65536x2048, .f32⟩
  | .hbm, ⟨6, _⟩ => ⟨S1x2048, .f32⟩
  | .hbm, ⟨7, _⟩ => ⟨S65536x2048, .f32⟩
  | .hbm, ⟨8, _⟩ => ⟨S65536x2048, .f32⟩
  | _, _ => ⟨S65536x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S65536x2048_0_1 : S1x2048.BroadcastsInDim S65536x2048 (![0, 1] : Fin 2 → Fin S65536x2048.rank)
  dot_S65536x2048_S2048x2048_S65536x2048_1_1_0_0_n_n_wf : DotDims.WF S65536x2048 S2048x2048 S65536x2048 [1] [1] [0] [0] [] []

variable [Facts₀]

def dot_S65536x2048_S2048x2048_S65536x2048_1_1_0_0_n_n : DotDims S65536x2048 S2048x2048 S65536x2048 where
  lhsContracting := [1]
  rhsContracting := [1]
  lhsNonContracting := [0]
  rhsNonContracting := [0]
  lhsBatch := []
  rhsBatch := []
  wf := dot_S65536x2048_S2048x2048_S65536x2048_1_1_0_0_n_n_wf

class Facts : Prop extends Facts₀ where

variable [Facts]
-- ==== Proof.Spec.lean ====
/-
  The function both programs compute, stated once over the four argument arrays.

  A masked linear layer. With `x` of shape [65536, 2048], a weight `w` and a mask of shape [2048, 2048]
  (rows indexed by the output feature `o`, columns by the input feature `k`) and a bias `b` of length 2048,

      out[n, o] = ( Σ_k  x[n, k] · (w[o, k] · mask[o, k]) ) + b[o],

  a sum over the 2048 input features, on the extended reals. Each program is shown to end with this array:
  the reference contracts `x` with the masked weight along the second axis of both and adds the bias broadcast
  over the rows; the kernel transposes the masked weight first, multiplies row blocks of `x` by it, and adds
  the bias row to every row of the block. No law of arithmetic beyond the re-indexing of one finite sum joins
  the two, so nothing here depends on the entries being finite.
-/
import Idealize.ShloMosaic.PureOps.Ideal
import Idealize.ShloMosaic.Lib.ValueIdx

noncomputable section

namespace Cert.MaskedLinear

open Idealize.ShloMosaic Idealize.ShloMosaic.ValueIdx

/-- The index of row `n`, column `k` of the activations. -/
abbrev atX (n : Fin 65536) (k : Fin 2048) : (⟨2, ![65536, 2048]⟩ : Shape).Idx := ix2 n k
/-- The index of row `o`, column `k` of the weight and of the mask. -/
abbrev atW (o : Fin 2048) (k : Fin 2048) : (⟨2, ![2048, 2048]⟩ : Shape).Idx := ix2 o k
/-- The index of entry `o` of the bias. -/
abbrev atB (o : Fin 2048) : (⟨1, ![2048]⟩ : Shape).Idx := ix1 o

/-- The masked linear layer, entry by entry: row `n` of `x` against row `o` of the masked weight, plus `b[o]`. -/
def out (x : (⟨2, ![65536, 2048]⟩ : Shape).Idx → EReal) (w : (⟨2, ![2048, 2048]⟩ : Shape).Idx → EReal)
    (b : (⟨1, ![2048]⟩ : Shape).Idx → EReal) (mask : (⟨2, ![2048, 2048]⟩ : Shape).Idx → EReal) :
    (⟨2, ![65536, 2048]⟩ : Shape).Idx → EReal :=
  fun i => (∑ k : Fin 2048, x (atX (i 0) k) * (w (atW (i 1) k) * mask (atW (i 1) k))) + b (atB (i 1))

/-- The layer at an index whose coordinates are the row `n` and the column `o`. -/
theorem out_at (x : (⟨2, ![65536, 2048]⟩ : Shape).Idx → EReal) (w : (⟨2, ![2048, 2048]⟩ : Shape).Idx → EReal)
    (b : (⟨1, ![2048]⟩ : Shape).Idx → EReal) (mask : (⟨2, ![2048, 2048]⟩ : Shape).Idx → EReal)
    (i : (⟨2, ![65536, 2048]⟩ : Shape).Idx) (n : Fin 65536) (o : Fin 2048) (h0 : (i 0).val = n.val) (h1 : (i 1).val = o.val) :
    out x w b mask i = (∑ k : Fin 2048, x (atX n k) * (w (atW o k) * mask (atW o k))) + b (atB o) := by
  have e0 : i 0 = n := Fin.ext h0
  have e1 : i 1 = o := Fin.ext h1
  unfold out
  rw [e0, e1]

end Cert.MaskedLinear

end
-- ==== Proof.RefValue.lean ====
/-
  The reference, read entry by entry, is the masked linear layer of Spec.lean.

  The reference multiplies the weight by the mask, contracts `x` with the product along the second axis of
  both (so entry (n, o) pairs row n of `x` with row o of the masked weight), and adds the bias, broadcast
  first to one row and then to every row. Read at an index (n, o) this is
  Σ_k x[n, k] · (w[o, k] · mask[o, k]) + b[o]: the three index functions that the contraction and the two
  broadcasts read their operands through are the coordinates (n, k), (o, k) and (o) themselves.
-/
import proofs.«119535_j19095424598809_1_alg».proof.Proof.Gen.ReferenceIdeal.Read
import proofs.«119535_j19095424598809_1_alg».proof.Proof.Spec

noncomputable section

namespace Cert.ReferenceIdeal.RefValue

open Cert.ReferenceIdeal Cert.ReferenceIdeal.Read Idealize.ShloMosaic Idealize.ShloMosaic.ValueIdx Cert.MaskedLinear

/-- The contraction reads `x` at (n, k), -/
theorem lidx_eq (i : S65536x2048.Idx) (k : Fin 2048) : lidx_main_v1 i k = atX (i 0) k :=
  funext fun a => Fin.ext (by match a with | ⟨0, _⟩ => rfl | ⟨1, _⟩ => rfl)

/-- and the masked weight at (o, k): the contracted axis is the second of both operands. -/
theorem ridx_eq (i : S65536x2048.Idx) (k : Fin 2048) : ridx_main_v1 i k = atW (i 1) k :=
  funext fun a => Fin.ext (by match a with | ⟨0, _⟩ => rfl | ⟨1, _⟩ => rfl)

/-- The two broadcasts of the bias read it at the column `o`. -/
theorem bidx_eq (i : S65536x2048.Idx) : idx_main_v2 (idx_main_v3 i) = atB (i 1) :=
  funext fun a => Fin.ext (by match a with | ⟨0, _⟩ => rfl)

/-- The reference's last stage is the masked linear layer. -/
theorem stage_eq_out (x0 : (⟨S65536x2048, .f32⟩ : BufTy).Contents (Elt Ideal)) (x1 : (⟨S2048x2048, .f32⟩ : BufTy).Contents (Elt Ideal))
    (x2 : (⟨S2048, .f32⟩ : BufTy).Contents (Elt Ideal)) (x3 : (⟨S2048x2048, .f32⟩ : BufTy).Contents (Elt Ideal)) :
    val_main_v4 (F := Ideal) x0 x1 x2 x3 = out x0 x1 x2 x3 := by
  funext i
  rw [val_main_v4_apply, val_main_v1_apply, val_main_v3_apply, val_main_v2_apply]
  simp only [val_main_v0_apply, lidx_eq, ridx_eq, bidx_eq, Ideal.addf_def, Ideal.mulf_def]
  rfl

end Cert.ReferenceIdeal.RefValue

end
-- ==== Proof.Payload.lean ====
/-
  What the kernel's body writes, entry by entry.

  At one grid point the body holds a block of 512 rows of `x`, the whole transposed masked weight `wT`
  (so `wT[k, o]` is the masked weight's entry (o, k)), and the bias as one row. It rounds the block to the
  narrower format, which changes nothing over the extended reals, multiplies it by `wT` into a zero
  accumulator, and adds the bias row to every row of the product. So entry (p, q) of what it stores is

      Σ_k  xblock[p, k] · wT[k, q]   +   bias[0, q],

  the matrix product read as a plain sum over the 2048 contracted positions: the product contracts the
  second axis of the block with the first axis of `wT`.
-/
import proofs.«119535_j19095424598809_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-- The left operand of the product is read on the output's row, -/
theorem lhs_row (j : S512x2048.Idx) (s : dot_S512x2048_S2048x2048_S512x2048_1_0_0_1_n_n.contr.Idx) :
    (dot_S512x2048_S2048x2048_S512x2048_1_0_0_1_n_n.lhsIdx j s 0).val = (j 0).val := by
  unfold DotDims.lhsIdx
  rw [dif_neg (show ¬(0 : Fin S512x2048.rank) ∈ dot_S512x2048_S2048x2048_S512x2048_1_0_0_1_n_n.lhsBatch by decide),
    dif_pos (show (0 : Fin S512x2048.rank) ∈ dot_S512x2048_S2048x2048_S512x2048_1_0_0_1_n_n.lhsNonContracting by decide)]
  rfl

/-- at the contracted position along its second axis; -/
theorem lhs_col (j : S512x2048.Idx) (s : dot_S512x2048_S2048x2048_S512x2048_1_0_0_1_n_n.contr.Idx) :
    (dot_S512x2048_S2048x2048_S512x2048_1_0_0_1_n_n.lhsIdx j s 1).val = (s ⟨0, by decide⟩).val :=
  dot_S512x2048_S2048x2048_S512x2048_1_0_0_1_n_n.lhsIdx_val_of_single rfl j s

/-- the right operand at the contracted position along its first axis, -/
theorem rhs_row (j : S512x2048.Idx) (s : dot_S512x2048_S2048x2048_S512x2048_1_0_0_1_n_n.contr.Idx) :
    (dot_S512x2048_S2048x2048_S512x2048_1_0_0_1_n_n.rhsIdx j s 0).val = (s ⟨0, by decide⟩).val :=
  dot_S512x2048_S2048x2048_S512x2048_1_0_0_1_n_n.rhsIdx_val_of_single rfl j s

/-- on the output's column. -/
theorem rhs_col (j : S512x2048.Idx) (s : dot_S512x2048_S2048x2048_S512x2048_1_0_0_1_n_n.contr.Idx) :
    (dot_S512x2048_S2048x2048_S512x2048_1_0_0_1_n_n.rhsIdx j s 1).val = (j 1).val := by
  unfold DotDims.rhsIdx
  rw [dif_neg (show ¬(1 : Fin S2048x2048.rank) ∈ dot_S512x2048_S2048x2048_S512x2048_1_0_0_1_n_n.rhsBatch by decide),
    dif_pos (show (1 : Fin S2048x2048.rank) ∈ dot_S512x2048_S2048x2048_S512x2048_1_0_0_1_n_n.rhsNonContracting by decide)]
  rfl

/-- The product into a zero accumulator, at entry (p, q): the sum over k of `a[p, k] · b[k, q]`. -/
theorem product_at (a : FVec Ideal S512x2048 .bf16) (b : FVec Ideal S2048x2048 .bf16) (p : Fin 512) (q : Fin 2048) :
    matmul dot_S512x2048_S2048x2048_S512x2048_1_0_0_1_n_n none a b (constant (F := Ideal) S512x2048 .f32 0x00000000#32) (ix2 p q)
      = ∑ k : Fin 2048, a (ix2 p k) * b (ix2 k q) := by
  refine (Ideal.matmul_constant_zero_apply dot_S512x2048_S2048x2048_S512x2048_1_0_0_1_n_n none a b (ix2 p q)).trans ?_
  rw [← Equiv.sum_comp (contrEquiv1 dot_S512x2048_S2048x2048_S512x2048_1_0_0_1_n_n 2048 rfl rfl).symm]
  refine Finset.sum_congr rfl fun k _ => ?_
  have hk := contrEquiv1_symm_val dot_S512x2048_S2048x2048_S512x2048_1_0_0_1_n_n 2048 rfl rfl k
  have el : dot_S512x2048_S2048x2048_S512x2048_1_0_0_1_n_n.lhsIdx (ix2 p q) ((contrEquiv1 dot_S512x2048_S2048x2048_S512x2048_1_0_0_1_n_n 2048 rfl rfl).symm k) = ix2 p k :=
    funext fun d => Fin.ext (by
      match d with
      | ⟨0, _⟩ => exact lhs_row _ _
      | ⟨1, _⟩ => exact (lhs_col _ _).trans hk)
  have er : dot_S512x2048_S2048x2048_S512x2048_1_0_0_1_n_n.rhsIdx (ix2 p q) ((contrEquiv1 dot_S512x2048_S2048x2048_S512x2048_1_0_0_1_n_n 2048 rfl rfl).symm k) = ix2 k q :=
    funext fun d => Fin.ext (by
      match d with
      | ⟨0, _⟩ => exact (rhs_row _ _).trans hk
      | ⟨1, _⟩ => exact rhs_col _ _)
  rw [el, er]

/-- THE BODY'S STORED VALUE at entry (p, q) of the block: the row of `x` against the column of `wT`, plus the bias. -/
theorem stored_at (xb : Vec Ideal S512x2048 .f32) (wT : Vec Ideal S2048x2048 .bf16) (br : Vec Ideal S1x2048 .f32)
    (p : Fin 512) (q : Fin 2048) :
    k0_pay1 (F := Ideal) xb wT br (ix2 p q)
      = (∑ k : Fin 2048, xb (ix2 p k) * wT (ix2 k q)) + br (ix2 (0 : Fin 1) q) := by
  unfold k0_pay1
  show FloatOps.addf
      (matmul dot_S512x2048_S2048x2048_S512x2048_1_0_0_1_n_n none (truncf .bf16 (xb : FVec Ideal S512x2048 .f32) bitsLt_bf16_f32)
        (shapeCast S2048x2048 (wT : FVec Ideal S2048x2048 .bf16) shapeCasts_S2048x2048_S2048x2048)
        (constant (F := Ideal) S512x2048 .f32 0x00000000#32) (ix2 p q))
      (broadcastTo S512x2048 (shapeCast S1x2048 (br : FVec Ideal S1x2048 .f32) shapeCasts_S1x2048_S1x2048) broadcasts_S1x2048_S512x2048 (ix2 p q)) = _
  rw [shapeCast_self, shapeCast_self]
  refine congrArg₂ (· + ·) ((product_at _ _ p q).trans ?_) (broadcastTo_1b_ab_apply _ broadcasts_S1x2048_S512x2048 p q)
  rfl

end Cert.KernelIdeal.Body

end
-- ==== Proof.KernelValue.lean ====
/-
  The kernel's result array, as one function of the four arguments.

  Before the grid runs, the host has formed `wT`, the transpose of the masked weight
  (`wT[k, o] = w[o, k] · mask[o, k]`; a rounding to the narrower format that is the identity over the extended
  reals), and the bias as one row. The grid has 128 points. Point `t` is handed rows `512 t … 512 t + 511` of `x`,
  all of `wT` and the bias row, and writes back rows `512 t … 512 t + 511` of the result. By the body's stored
  value (Payload.lean), entry (p, q) of what point `t` writes is

      Σ_k x[512 t + p, k] · (w[q, k] · mask[q, k]) + b[q],

  which is entry (512 t + p, q) of the masked linear layer of Spec.lean: what each point writes back is its
  block of that one array. The 128 blocks of 512 rows cover all 65536 rows (row r lies in the block of point
  r / 512), so after the run the result array is the layer.
-/
import proofs.«119535_j19095424598809_1_alg».proof.Proof.Gen.KernelIdeal.Value
import proofs.«119535_j19095424598809_1_alg».proof.Proof.Payload
import proofs.«119535_j19095424598809_1_alg».proof.Proof.Spec
import Idealize.ShloMosaic.Lib.ValueLayout

noncomputable section

namespace Cert.KernelIdeal.Layer

open Cert.KernelIdeal Cert.KernelIdeal.Gen Idealize.ShloMosaic Idealize.ShloMosaic.TcCoe Idealize.SL.Sem
open Idealize.ShloMosaic.ValueIdx Cert.MaskedLinear
open Idealize.ShloMosaic.Pipeline (Dat)

variable (m : (ℓ : Loc nD τ sig) → Buf (Elt Ideal) ℓ) (ρ : Dev nD → PrngReg)

/-- The activations, the weight, the bias and the mask on core `c`, as launched. -/
abbrev argX (c : Dev nD) : FVec Ideal S65536x2048 .f32 := m ((c : Thread nD τ).loc main_arg0)
abbrev argW (c : Dev nD) : FVec Ideal S2048x2048 .f32 := m ((c : Thread nD τ).loc main_arg1)
abbrev argB (c : Dev nD) : FVec Ideal S2048 .f32 := m ((c : Thread nD τ).loc main_arg2)
abbrev argM (c : Dev nD) : FVec Ideal S2048x2048 .f32 := m ((c : Thread nD τ).loc main_arg3)

/-- The masked linear layer of the arguments as launched. -/
abbrev layer (c : Dev nD) : S65536x2048.Idx → EReal := out (argX m c) (argW m c) (argB m c) (argM m c)

/-! ## The two arrays the host prepares -/

/-- The second operand of the grid is the transpose of the masked weight. -/
theorem wT_eq (c : Dev nD) : (V m c main_v2 : S2048x2048.Idx → EReal)
    = truncf .bf16 (transpose S2048x2048 [1, 0] (mulf (argW m c) (argM m c)) transposes_S2048x2048_S2048x2048_1_0) bitsLt_bf16_f32 := by
  dsimp only [Gen.V, Gen.hostOps0]; after_results

/-- Its entry (k, o) is the masked weight's entry (o, k). -/
theorem wT_at (c : Dev nD) (k o : Fin 2048) :
    (V m c main_v2 : S2048x2048.Idx → EReal) (ix2 k o) = argW m c (atW o k) * argM m c (atW o k) := by
  rw [wT_eq]
  exact transpose_ix2_apply (mulf (argW m c) (argM m c)) transposes_S2048x2048_S2048x2048_1_0 k o

/-- The third operand is the bias laid out as one row. -/
theorem biasRow_eq (c : Dev nD) : (V m c main_v3 : S1x2048.Idx → EReal) = shapeCast S1x2048 (argB m c) shapeCasts_S2048_S1x2048 := by
  dsimp only [Gen.V, Gen.hostOps0]; after_results; rfl

/-- Its entry (0, o) is `b[o]`. -/
theorem biasRow_at (c : Dev nD) (o : Fin 2048) :
    (V m c main_v3 : S1x2048.Idx → EReal) (ix2 (0 : Fin 1) o) = argB m c (atB o) := by
  rw [biasRow_eq]
  exact shapeCast_a_1a_apply (argB m c) shapeCasts_S2048_S1x2048 0 o

/-! ## The blocks a point is handed -/

/-- Where each operand's block sits at point `t`: the activations and the result move down one block of rows per
    point, the transposed weight and the bias row stay put (decided over the 128 points). -/
theorem block_positions : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the activations' block at point `t` is row `512 t + p` of `x`. -/
theorem xBlock_at (c : Dev nD) (t : Fin cfg0.N) (p : Fin 512) (k : Fin 2048) (n : Fin 65536) (hn : n.val = t.val * 512 + p.val) :
    (iblk m c 0 t : Vec Ideal S512x2048 .f32) (ix2 p k) = argX m c (atX n k) := by
  obtain ⟨e0, e1, -⟩ := block_positions t
  unfold iblk
  rw [View.read_apply]
  show V m c main_arg0 _ = _
  rw [V_main_arg0]
  refine congrArg (argX m c) (funext fun a => Fin.ext ?_)
  match a with
  | ⟨0, _⟩ => show win0_0.index t (0 : Fin 2) * 512 + 1 * p.val = n.val; rw [e0, hn]; omega
  | ⟨1, _⟩ => show win0_0.index t (1 : Fin 2) * 2048 + 1 * k.val = k.val; rw [e1]; omega

/-- The transposed weight's block is the whole of it, at every point. -/
theorem wBlock_at (c : Dev nD) (t : Fin cfg0.N) (k o : Fin 2048) :
    (iblk m c 1 t : Vec Ideal S2048x2048 .bf16) (ix2 k o) = argW m c (atW o k) * argM m c (atW o k) := by
  obtain ⟨-, -, e0, e1, -⟩ := block_positions t
  unfold iblk
  rw [View.read_apply]
  show V m c main_v2 _ = _
  refine (congrArg (V m c main_v2 : S2048x2048.Idx → EReal) (funext fun a => Fin.ext ?_)).trans (wT_at m c k o)
  match a with
  | ⟨0, _⟩ => show win0_1.index t (0 : Fin 2) * 2048 + 1 * k.val = k.val; rw [e0]; omega
  | ⟨1, _⟩ => show win0_1.index t (1 : Fin 2) * 2048 + 1 * o.val = o.val; rw [e1]; omega

/-- So is the bias row's. -/
theorem bBlock_at (c : Dev nD) (t : Fin cfg0.N) (o : Fin 2048) :
    (iblk m c 2 t : Vec Ideal S1x2048 .f32) (ix2 (0 : Fin 1) o) = argB m c (atB o) := by
  obtain ⟨-, -, -, -, e0, e1, -⟩ := block_positions t
  unfold iblk
  rw [View.read_apply]
  show V m c main_v3 _ = _
  refine (congrArg (V m c main_v3 : S1x2048.Idx → EReal) (funext fun a => Fin.ext ?_)).trans (biasRow_at m c o)
  match a with
  | ⟨0, _⟩ => show win0_2.index t (0 : Fin 2) * 1 + 1 * 0 = 0; rw [e0]
  | ⟨1, _⟩ => show win0_2.index t (1 : Fin 2) * 2048 + 1 * o.val = o.val; rw [e1]; omega

/-! ## What a point writes back -/

theorem zero_offsets : (![0, 0] : Fin 2 → Nat) = fun _ => 0 := funext fun a => by fin_cases a <;> rfl

/-- A function of a 512 × 2048 block is determined by its values at the pairs (p, q). -/
theorem block_ext (f g : S512x2048.Idx → EReal) (h : ∀ (p : Fin 512) (q : Fin 2048), f (ix2 p q) = g (ix2 p q)) : f = g :=
  funext fun j => by rw [eq_ix2 j]; exact h _ _

/-- WHAT POINT `t` WRITES BACK is its block of the layer. -/
theorem flushed_eq (c : Dev nD) (t : Fin cfg0.N) :
    (dats m 0 c).flushed 3 t = ((cfg0.win 3).blk t).view.read (Elt Ideal) (layer m c) := by
  rw [Value.flushed3]
  unfold out0_3
  rw [View.canon_unit_zero zero_offsets]
  simp only [View.ld_unit_zero (S := S512x2048) zero_offsets, View.ld_unit_zero (S := S2048x2048) zero_offsets,
    View.ld_unit_zero (S := S1x2048) zero_offsets]
  obtain ⟨-, -, -, -, -, -, e0, e1⟩ := block_positions t
  have hN : grid0.N = 128 := N_0
  have ht : t.val < grid0.N := t.isLt
  show (k0_pay1 (iblk m c 0 t) (iblk m c 1 t) (iblk m c 2 t) : S512x2048.Idx → EReal)
    = fun j => layer m c (((cfg0.win 3).blk t).view.emb j)
  refine block_ext _ _ fun p q => ?_
  have hn : t.val * 512 + p.val < 65536 := by have := p.isLt; omega
  refine (Body.stored_at (iblk m c 0 t) (iblk m c 1 t) (iblk m c 2 t) p q).trans ?_
  refine Eq.trans ?_ (out_at (argX m c) (argW m c) (argB m c) (argM m c) (((cfg0.win 3).blk t).view.emb (ix2 p q))
    ⟨t.val * 512 + p.val, hn⟩ q ?_ ?_).symm
  · exact congrArg₂ (· + ·)
      (Finset.sum_congr rfl fun k _ => congrArg₂ (· * ·) (xBlock_at m c t p k ⟨t.val * 512 + p.val, hn⟩ rfl) (wBlock_at m c t k q))
      (bBlock_at m c t q)
  · show win0_3.index t (0 : Fin 2) * 512 + 1 * p.val = t.val * 512 + p.val; rw [e0]; omega
  · show win0_3.index t (1 : Fin 2) * 2048 + 1 * q.val = q.val; rw [e1]; omega

/-! ## The blocks cover the array -/

/-- An index of the result is in point `t`'s block iff each coordinate is in the block's range on its axis. -/
theorem mem_block (t : Fin cfg0.N) (i : S65536x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v4).slice (win0_3.rect t)).set ↔ _
  rw [View.set_slice_whole, Rect.mem_set_unit]
  exact Iff.rfl

/-- Row `r` is written by point `r / 512`. -/
theorem covered (i : S65536x2048.Idx) :
    ∃ t : Fin cfg0.N, (cfg0.win 3).flush t = true ∧ i ∈ ((cfg0.win 3).blk t).view.set := by
  have hN : grid0.N = 128 := N_0
  have hi0 : (i 0).val < 65536 := (i 0).isLt
  have hi1 : (i 1).val < 2048 := (i 1).isLt
  obtain ⟨t, ht⟩ : ∃ t : Fin cfg0.N, t.val = (i 0).val / 512 :=
    ⟨⟨(i 0).val / 512, by show (i 0).val / 512 < grid0.N; omega⟩, rfl⟩
  obtain ⟨-, -, -, -, -, -, e0, e1⟩ := block_positions t
  refine ⟨t, flush0_3 t, ?_⟩
  rw [mem_block]
  intro a
  match a with
  | ⟨0, _⟩ =>
    show win0_3.index t (0 : Fin 2) * 512 ≤ (i 0).val ∧ (i 0).val < win0_3.index t (0 : Fin 2) * 512 + 512
    rw [e0, ht]; omega
  | ⟨1, _⟩ =>
    show win0_3.index t (1 : Fin 2) * 2048 ≤ (i 1).val ∧ (i 1).val < win0_3.index t (1 : Fin 2) * 2048 + 2048
    rw [e1]; omega

/-! ## The array after the run -/

/-- THE RESULT ARRAY after the run is the masked linear layer of the arguments. -/
theorem final (c : Dev nD) : (dats m 0 c).arrAt 3 cfg0.N = layer m c :=
  (dats m 0 c).arrAt_eq_of_cover 3 (layer m c) (fun t _ => flushed_eq m c t) covered

/-- Every weakly fair execution of the kernel's program terminates with the result at the layer and the arguments as launched. -/
theorem run : θ_run defs (onTc (τ := τ) (main (F := Ideal))) ⟨m, fun _ => 0, ρ⟩ fun r => ∀ c : Dev nD,
      r.2.mem ((c : Thread nD τ).loc main_v4) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Layer

end
-- ==== Proof.lean ====
/-
  A masked linear layer computed two ways.

  The reference forms the masked weight `w · mask`, contracts `x` with it along the input features and adds the
  bias: `out[n, o] = Σ_k x[n, k] · (w[o, k] · mask[o, k]) + b[o]`. The kernel transposes the masked weight on the
  host, then sweeps 128 blocks of 512 rows of `x`, multiplying each block by the transposed masked weight and
  adding the bias row, and writes each block of the result back in place. Over the extended reals the
  roundings to the narrower format are the identity and a matrix product is a plain finite sum, so both
  programs end with the same array (Spec.lean states it; RefValue.lean shows the reference ends with it,
  Payload.lean and KernelValue.lean that the kernel does). The two sums run over the same positions in the same
  order, term by term equal: no law that could fail at an infinite entry is used.

  The kernel's idealization rewrites no operation, so there is nothing to preserve beyond its own text. The
  three programs terminate without a fault and leave their arguments unchanged: for the two kernel programs by
  the generated run of the grid, for the reference by its generated run.
-/
import proofs.«119535_j19095424598809_1_alg».proof.Defs
import proofs.«119535_j19095424598809_1_alg».proof.Proof.Gen.Kernel
import proofs.«119535_j19095424598809_1_alg».proof.Proof.Gen.Kernel.Frame
import proofs.«119535_j19095424598809_1_alg».proof.Proof.Gen.KernelIdeal
import proofs.«119535_j19095424598809_1_alg».proof.Proof.Gen.KernelIdeal.Frame
import proofs.«119535_j19095424598809_1_alg».proof.Proof.Gen.KernelIdeal.Value
import proofs.«119535_j19095424598809_1_alg».proof.Proof.Gen.ReferenceIdeal
import proofs.«119535_j19095424598809_1_alg».proof.Proof.Gen.ReferenceIdeal.Run
import proofs.«119535_j19095424598809_1_alg».proof.Proof.Gen.ReferenceIdeal.Read
import proofs.«119535_j19095424598809_1_alg».proof.Proof.Gen.Pre_finite_inputs
import proofs.«119535_j19095424598809_1_alg».proof.Proof.Spec
import proofs.«119535_j19095424598809_1_alg».proof.Proof.RefValue
import proofs.«119535_j19095424598809_1_alg».proof.Proof.Payload
import proofs.«119535_j19095424598809_1_alg».proof.Proof.KernelValue
import Idealize.ShloMosaic.Adequacy
import Idealize.ShloMosaic.Init

noncomputable section

namespace Cert.Proof

open Idealize.ShloMosaic Idealize.SL.Sem

/-- The kernel as printed runs to the end and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories that agree on the four arguments, end with the masked linear layer of those
    arguments: the kernel by its blocks (KernelValue.lean), the reference by its last stage (RefValue.lean). -/
theorem algebraic : Cert.algebraic_KernelIdeal_ReferenceIdeal := by
  intro m ρ m' ρ' _ hagree
  refine ⟨fun c => Cert.KernelIdeal.Layer.layer m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.stage_eq_out,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
